-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S128x256 : Shape := ⟨2, ![128, 256]⟩
abbrev S128x128 : Shape := ⟨2, ![128, 128]⟩
abbrev S64x128 : Shape := ⟨2, ![64, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg6 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S1600000 .f32) (main_arg4 : FVec F S128x256 .f32) (main_arg5 : FVec F S128x128 .f32) (main_arg6 : FVec F S64x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S128x256 : Shape := ⟨2, ![128, 256]⟩
abbrev S128x128 : Shape := ⟨2, ![128, 128]⟩
abbrev S64x128 : Shape := ⟨2, ![64, 128]⟩
abbrev S256x128 : Shape := ⟨2, ![256, 128]⟩
abbrev S128x64 : Shape := ⟨2, ![128, 64]⟩
abbrev S100000x128 : Shape := ⟨2, ![100000, 128]⟩
abbrev S5000x256 : Shape := ⟨2, ![5000, 256]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩
abbrev S5000 : Shape := ⟨1, ![5000]⟩
abbrev S5000x1 : Shape := ⟨2, ![5000, 1]⟩

abbrev nBuf : Space → Nat
  | .hbm => 62
  | .vmem => 19
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128x128, .f32⟩
  | .hbm, ⟨6, _⟩ => ⟨S64x128, .f32⟩
  | .hbm, ⟨7, _⟩ => ⟨S256x128, .f32⟩
  | .hbm, ⟨8, _⟩ => ⟨S128x128, .f32⟩
  | .hbm, ⟨9, _⟩ => ⟨S128x64, .f32⟩
  | .hbm, ⟨10, _⟩ => ⟨S100000x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S1600000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x64, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  transposes_S128x256_S256x128_1_0 : S128x256.Transposes [1, 0] S256x128
  transposes_S128x128_S128x128_1_0 : S128x128.Transposes [1, 0] S128x128
  transposes_S64x128_S128x64_1_0 : S64x128.Transposes [1, 0] S128x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x256 : Shape := ⟨2, ![100000, 256]⟩
abbrev S1600000 : Shape := ⟨1, ![1600000]⟩
abbrev S128x256 : Shape := ⟨2, ![128, 256]⟩
abbrev S128x128 : Shape := ⟨2, ![128, 128]⟩
abbrev S64x128 : Shape := ⟨2, ![64, 128]⟩
abbrev S256x128 : Shape := ⟨2, ![256, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S128x64 : Shape := ⟨2, ![128, 64]⟩
abbrev S100000x64 : Shape := ⟨2, ![100000, 64]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128x128, .f32⟩
  | .hbm, ⟨6, _⟩ => ⟨S64x128, .f32⟩
  | .hbm, ⟨7, _⟩ => ⟨S256x128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S128x64, .f32⟩
  | .hbm, ⟨50, _⟩ => ⟨S100000x64, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x64, .f32⟩
  | .hbm, ⟨80, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_cst : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  transposes_S128x256_S256x128_1_0 : S128x256.Transposes [1, 0] S256x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  transposes_S64x128_S128x64_1_0 : S64x128.Transposes [1, 0] S128x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, with its result array named.

  The program is four pipelined regions among four stretches of host operations. Its generated frame certificate
  runs the eight segments in order and ends knowing every unscoped buffer's final contents: the fold `W8` of the
  segments' effects over the launch memory. The frame claim keeps of that only the seven argument arrays. Here the
  same run is read once more, keeping also the result buffer: after every weakly fair execution the result array
  holds `W8` at its buffer, and the arguments are unchanged.
-/
import proofs.«112193_j90031104459077_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result buffer ends at the last
    boundary's contents `W8`, and each argument array ends as launched. -/
theorem run_W8 : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.GcnRun

end
-- ==== Proof.Stages.lean ====
/-
  The stages of the graph-convolution pipeline, as functions of ONE array each.

  Both programs compute, from node features X, a sparse adjacency (edge rows, edge columns, edge weights) and three
  weight matrices,   softmax_rows ( Â · ( relu ( Â · ( relu ( Â · (X W0ᵀ) ) Wh0ᵀ ) ) W1ᵀ ) ),
  where  Â · Z  is the weighted neighbour sum  (Â · Z)[i] = Σ over edges e with row e = i of  val e · Z[col e]
  (a row gather, a product with the edge weight, a scatter-add from zero), relu is the maximum with zero, and the row
  softmax subtracts the row maximum, exponentiates and divides by the row sum.

  The host operations of these stages are the same text in the two programs; here each is given a name as a function
  of the array it transforms (the edge lists and the weights are parameters), so that the rest of the proof only has
  to show the arrays entering the stages equal. The bodies are the reference's own operations.
-/
import proofs.«112193_j90031104459077_2_alg».proof.Proof.Gen.ReferenceIdeal.Read

noncomputable section

namespace Cert.Gcn

open Cert.ReferenceIdeal Cert.ReferenceIdeal.Read Idealize.ShloMosaic Idealize.ShloMosaic.TcCoe Idealize.SL.Sem
open Facts₀ Facts

variable {F : FTy → Type} [FloatOps F]

/-- Edge lists and edge weights, node-feature arrays of 128 and 64 columns. -/
abbrev EdgeI := (⟨S1600000, .i32⟩ : BufTy).Contents (Elt F)
abbrev EdgeF := (⟨S1600000, .f32⟩ : BufTy).Contents (Elt F)
abbrev Node128 := (⟨S100000x128, .f32⟩ : BufTy).Contents (Elt F)
abbrev Node64 := (⟨S100000x64, .f32⟩ : BufTy).Contents (Elt F)

/-- The weighted neighbour sum Â · Z on 128 columns: row `col e` of `Z` (a negative index wrapped once), times the edge's
    weight, added into row `row e` of a zero array. -/
def spmm128 (row col : EdgeI (F := F)) (val : EdgeF (F := F)) (Z : Node128 (F := F)) : Node128 (F := F) :=
  Host.scatterAdd scatter_S100000x128_S1600000x1_S1600000x128_1_0_0_1 (val_main_v12 (F := F)) (val_main_v13 (F := F) row)
    (mulf (val_main_v10 (F := F) val)
      (Host.gather gather_S100000x128_S1600000x1_S1600000x128_1_0_n_n_0_1_1128 Z (val_main_v8 (F := F) col)))

/-- The same on 64 columns. -/
def spmm64 (row col : EdgeI (F := F)) (val : EdgeF (F := F)) (Z : Node64 (F := F)) : Node64 (F := F) :=
  Host.scatterAdd scatter_S100000x64_S1600000x1_S1600000x64_1_0_0_1 (val_main_v44 (F := F)) (val_main_v45 (F := F) row)
    (mulf (val_main_v42 (F := F) val)
      (Host.gather gather_S100000x64_S1600000x1_S1600000x64_1_0_n_n_0_1_164 Z (val_main_v40 (F := F) col)))

/-- The three dense products, X·W0ᵀ (256 → 128 columns), Z·Wh0ᵀ (128 → 128) and Z·W1ᵀ (128 → 64), each against the
    already transposed weight: entry (r, j) is the sum over k of (row r, column k) times (row k, column j). -/
def lin0 (X : (⟨S100000x256, .f32⟩ : BufTy).Contents (Elt F)) (WT : (⟨S256x128, .f32⟩ : BufTy).Contents (Elt F)) : Node128 (F := F) :=
  Host.dotGeneral dot_S100000x256_S256x128_S100000x128_1_0_0_1_n_n none X WT
def lin1 (Z : Node128 (F := F)) (WT : (⟨S128x128, .f32⟩ : BufTy).Contents (Elt F)) : Node128 (F := F) :=
  Host.dotGeneral dot_S100000x128_S128x128_S100000x128_1_0_0_1_n_n none Z WT
def lin2 (Z : Node128 (F := F)) (WT : (⟨S128x64, .f32⟩ : BufTy).Contents (Elt F)) : Node64 (F := F) :=
  Host.dotGeneral dot_S100000x128_S128x64_S100000x64_1_0_0_1_n_n none Z WT

/-- relu: the maximum with the zero array. -/
def relu128 (Z : Node128 (F := F)) : Node128 (F := F) := maximumf Z (val_main_call0_v0 (F := F))

/-- A row's maximum (from -∞), then once more against -∞, as a column. -/
def rowMax64 (Z : Node64 (F := F)) : (⟨S100000, .f32⟩ : BufTy).Contents (Elt F) :=
  maximumf (val_main_v48 (F := F)) (Host.reduce FloatOps.maximumf Z (val_main_cst_7 (F := F)) reducesTo_S100000x64_S100000_d1 h_S_)

/-- exp (Z − row maximum). -/
def expShift64 (Z : Node64 (F := F)) : Node64 (F := F) :=
  Host.exp (subf Z (broadcastInDim S100000x64 ![0, 1] bcast_S100000x1_S100000x64_0_1
    (broadcastInDim S100000x1 ![0] bcast_S100000_S100000x1_0 (rowMax64 Z))))

/-- The row softmax: exp (Z − row maximum) over its row sum. -/
def softmax64 (Z : Node64 (F := F)) : Node64 (F := F) :=
  Host.divf (expShift64 Z) (broadcastInDim S100000x64 ![0, 1] bcast_S100000x1_S100000x64_0_1
    (broadcastInDim S100000x1 ![0] bcast_S100000_S100000x1_0
      (Host.reduceAdd (expShift64 Z) (val_main_cst_9 (F := F)) reducesTo_S100000x64_S100000_d1 h_S_)))

/-! ## The reference's stages are these functions of the previous stage -/

section
variable (x0 : (⟨S100000x256, .f32⟩ : BufTy).Contents (Elt F)) (x1 x2 : EdgeI (F := F)) (x3 : EdgeF (F := F))
  (x4 : (⟨S128x256, .f32⟩ : BufTy).Contents (Elt F)) (x5 : (⟨S128x128, .f32⟩ : BufTy).Contents (Elt F))
  (x6 : (⟨S64x128, .f32⟩ : BufTy).Contents (Elt F))

theorem v1_eq : val_main_v1 x0 x4 = lin0 x0 (val_main_v0 x4) := rfl
theorem v14_eq : val_main_v14 x0 x1 x2 x3 x4 = spmm128 x1 x2 x3 (val_main_v1 x0 x4) := rfl
theorem v15_eq : val_main_v15 x0 x1 x2 x3 x4 = relu128 (val_main_v14 x0 x1 x2 x3 x4) := rfl
theorem v17_eq : val_main_v17 x0 x1 x2 x3 x4 x5 = lin1 (val_main_v15 x0 x1 x2 x3 x4) (val_main_v16 x5) := rfl
theorem v30_eq : val_main_v30 x0 x1 x2 x3 x4 x5 = spmm128 x1 x2 x3 (val_main_v17 x0 x1 x2 x3 x4 x5) := rfl
theorem v31_eq : val_main_v31 x0 x1 x2 x3 x4 x5 = relu128 (val_main_v30 x0 x1 x2 x3 x4 x5) := rfl
theorem v33_eq : val_main_v33 x0 x1 x2 x3 x4 x5 x6 = lin2 (val_main_v31 x0 x1 x2 x3 x4 x5) (val_main_v32 x6) := rfl
theorem v46_eq : val_main_v46 x0 x1 x2 x3 x4 x5 x6 = spmm64 x1 x2 x3 (val_main_v33 x0 x1 x2 x3 x4 x5 x6) := rfl
theorem v57_eq : val_main_v57 x0 x1 x2 x3 x4 x5 x6 = softmax64 (val_main_v46 x0 x1 x2 x3 x4 x5 x6) := rfl
end

end Cert.Gcn

end
-- ==== Proof.HostChain.lean ====
/-
  The host stretches between the kernel's four regions, read as the pipeline's stages.

  Between the regions the idealized kernel's program runs the same host operations as the reference: first the three
  weight transposes, then — after each dense product — the weighted neighbour sum Â · Z of the array the region
  left. The buffer contents at the eight segment boundaries are the folds `W0 … W8` of the generated frame. This module
  reads those folds at the buffers the next segment uses:
  * the transposes, at region 0's entry and — no later segment writing them — at the entries of regions 1 and 2;
  * the edge lists and the edge weights, which nothing writes, at every boundary;
  * each neighbour sum, as the stage function `spmm128` / `spmm64` of the array the previous region left and the edge
    data.
-/
import proofs.«112193_j90031104459077_2_alg».proof.Proof.Gen.KernelIdeal.Frame
import proofs.«112193_j90031104459077_2_alg».proof.Proof.Stages

set_option maxRecDepth 16384

noncomputable section

namespace Cert.KernelIdeal.GcnHost

open Cert.KernelIdeal Cert.KernelIdeal.Gen Idealize.ShloMosaic Idealize.ShloMosaic.TcCoe Idealize.SL.Sem Idealize.ShloMosaic.StableHlo
open Cert.ReferenceIdeal.Read (val_main_v0 val_main_v16 val_main_v32)

variable {F : FTy → Type} [FloatOps F]
variable (m : (ℓ : Loc nD τ sig) → Buf (Elt F) ℓ) (ρ : Dev nD → PrngReg)

/-- A buffer that no operation of a host stretch writes holds after the stretch what it held before. -/
macro "host_keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-! ## The edge lists and the edge weights at every boundary -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by host_keeps hostOps0).trans rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1
    _ = m ((c : Thread nD τ).loc main_arg1) := W2_arg1 m ρ c
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps1
    _ = m ((c : Thread nD τ).loc main_arg2) := W2_arg2 m ρ c
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = m ((c : Thread nD τ).loc main_arg3) := W2_arg3 m ρ c

theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := by host_keeps hostOps2
    _ = m ((c : Thread nD τ).loc main_arg1) := W4_arg1 m ρ c
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by host_keeps hostOps2
    _ = m ((c : Thread nD τ).loc main_arg2) := W4_arg2 m ρ c
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_keeps hostOps2
    _ = m ((c : Thread nD τ).loc main_arg3) := W4_arg3 m ρ c

/-! ## The transposed weights: written once, before region 0 -/

theorem W1_v0 (c : Dev nD) : W1 m ρ c (Proc.devRef .tc main_v0) = val_main_v0 (F := F) (m ((c : Thread nD τ).loc main_arg4)) := by
  show StableHlo.after hostOps0 (W0 m ρ c) (Proc.devRef .tc main_v0) = _
  after_results
  rfl
theorem W1_v1 (c : Dev nD) : W1 m ρ c (Proc.devRef .tc main_v1) = val_main_v16 (F := F) (m ((c : Thread nD τ).loc main_arg5)) := by
  show StableHlo.after hostOps0 (W0 m ρ c) (Proc.devRef .tc main_v1) = _
  after_results
  rfl
theorem W1_v2 (c : Dev nD) : W1 m ρ c (Proc.devRef .tc main_v2) = val_main_v32 (F := F) (m ((c : Thread nD τ).loc main_arg6)) := by
  show StableHlo.after hostOps0 (W0 m ρ c) (Proc.devRef .tc main_v2) = _
  after_results
  rfl

/-- Wh0ᵀ as region 1 finds it. -/
theorem W3_v1 (c : Dev nD) : W3 m ρ c (Proc.devRef .tc main_v1) = val_main_v16 (F := F) (m ((c : Thread nD τ).loc main_arg5)) :=
  calc W3 m ρ c (Proc.devRef .tc main_v1)
    _ = W2 m ρ c (Proc.devRef .tc main_v1) := by host_keeps hostOps1
    _ = W1 m ρ c (Proc.devRef .tc main_v1) := W2_of_ne m ρ c main_v1 (by decide)
    _ = _ := W1_v1 m ρ c
/-- W1ᵀ as region 2 finds it. -/
theorem W5_v2 (c : Dev nD) : W5 m ρ c (Proc.devRef .tc main_v2) = val_main_v32 (F := F) (m ((c : Thread nD τ).loc main_arg6)) :=
  calc W5 m ρ c (Proc.devRef .tc main_v2)
    _ = W4 m ρ c (Proc.devRef .tc main_v2) := by host_keeps hostOps2
    _ = W3 m ρ c (Proc.devRef .tc main_v2) := W4_of_ne m ρ c main_v2 (by decide)
    _ = W2 m ρ c (Proc.devRef .tc main_v2) := by host_keeps hostOps1
    _ = W1 m ρ c (Proc.devRef .tc main_v2) := W2_of_ne m ρ c main_v2 (by decide)
    _ = _ := W1_v2 m ρ c

/-! ## The neighbour sums -/

/-- Region 1 finds Â · (what region 0 left). -/
theorem W3_v16 (c : Dev nD) : W3 m ρ c (Proc.devRef .tc main_v16)
    = Cert.Gcn.spmm128 (F := F) (m ((c : Thread nD τ).loc main_arg1)) (m ((c : Thread nD τ).loc main_arg2))
        (m ((c : Thread nD τ).loc main_arg3)) (W2 m ρ c (Proc.devRef .tc main_v3)) := by
  have h : W3 m ρ c (Proc.devRef .tc main_v16)
      = Cert.Gcn.spmm128 (F := F) (W2 m ρ c (Proc.devRef .tc main_arg1)) (W2 m ρ c (Proc.devRef .tc main_arg2))
          (W2 m ρ c (Proc.devRef .tc main_arg3)) (W2 m ρ c (Proc.devRef .tc main_v3)) := by
    show StableHlo.after hostOps1 (W2 m ρ c) (Proc.devRef .tc main_v16) = _
    after_results_simp
    rfl
  rw [h, W2_arg1 m ρ c, W2_arg2 m ρ c, W2_arg3 m ρ c]
/-- Region 2 finds Â · (what region 1 left). -/
theorem W5_v30 (c : Dev nD) : W5 m ρ c (Proc.devRef .tc main_v30)
    = Cert.Gcn.spmm128 (F := F) (m ((c : Thread nD τ).loc main_arg1)) (m ((c : Thread nD τ).loc main_arg2))
        (m ((c : Thread nD τ).loc main_arg3)) (W4 m ρ c (Proc.devRef .tc main_v17)) := by
  have h : W5 m ρ c (Proc.devRef .tc main_v30)
      = Cert.Gcn.spmm128 (F := F) (W4 m ρ c (Proc.devRef .tc main_arg1)) (W4 m ρ c (Proc.devRef .tc main_arg2))
          (W4 m ρ c (Proc.devRef .tc main_arg3)) (W4 m ρ c (Proc.devRef .tc main_v17)) := by
    show StableHlo.after hostOps2 (W4 m ρ c) (Proc.devRef .tc main_v30) = _
    after_results_simp
    rfl
  rw [h, W4_arg1 m ρ c, W4_arg2 m ρ c, W4_arg3 m ρ c]
/-- Region 3 finds Â · (what region 2 left). -/
theorem W7_v44 (c : Dev nD) : W7 m ρ c (Proc.devRef .tc main_v44)
    = Cert.Gcn.spmm64 (F := F) (m ((c : Thread nD τ).loc main_arg1)) (m ((c : Thread nD τ).loc main_arg2))
        (m ((c : Thread nD τ).loc main_arg3)) (W6 m ρ c (Proc.devRef .tc main_v31)) := by
  have h : W7 m ρ c (Proc.devRef .tc main_v44)
      = Cert.Gcn.spmm64 (F := F) (W6 m ρ c (Proc.devRef .tc main_arg1)) (W6 m ρ c (Proc.devRef .tc main_arg2))
          (W6 m ρ c (Proc.devRef .tc main_arg3)) (W6 m ρ c (Proc.devRef .tc main_v31)) := by
    show StableHlo.after hostOps3 (W6 m ρ c) (Proc.devRef .tc main_v44) = _
    after_results_simp
    rfl
  rw [h, W6_arg1 m ρ c, W6_arg2 m ρ c, W6_arg3 m ρ c]

end Cert.KernelIdeal.GcnHost

end
-- ==== Proof.Matmul0.lean ====
/-
  The first dense product: X · W0ᵀ, 100000 × 256 times 256 × 128.

  The region walks the rows of X in twenty blocks of 5000. At a point it holds rows 5000·t … 5000·t+4999 of X and the
  whole (already transposed) weight, and writes the 5000 × 128 product of the two into the same rows of the output.
  Entry (p, q) of a block's product is the sum over k of (block row p, column k) times (weight row k, column q); row p of
  the block at point t is row 5000·t + p of X, so the entry is entry (5000·t + p, q) of the one whole product. A row of a
  product depends only on the same row of the left factor, which is why the blocks of the whole product are the products
  of the blocks; no property of the sums beyond re-indexing is used. The twenty blocks cover every row (row r is in the
  block of point r / 5000), so after the region the output array is the whole product.
-/
import proofs.«112193_j90031104459077_2_alg».proof.Proof.Gen.KernelIdeal.Frame
import proofs.«112193_j90031104459077_2_alg».proof.Proof.Stages
import Idealize.ShloMosaic.Lib.Pipeline.Value
import Idealize.ShloMosaic.Lib.ValueIdx
import Idealize.ShloMosaic.PureOps.Ideal.Laws

noncomputable section

namespace Cert.KernelIdeal.GcnMatmul0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## A block's product, entry by entry -/

/-- Where the product's dimension numbers read the left factor: row of the output entry, column the contraction position. -/
theorem lhs_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_col (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
/-- Where they read the right factor: row the contraction position, column of the output entry. -/
theorem rhs_row (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem rhs_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- Entry (p, q) of the body's result on a block `x0` of X and the weight `x1`: the narrowing to bf16 is the identity on
    the ideal values and the reshape is to the same shape, so it is the plain sum of products over the 256 columns. -/
theorem block_product_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x128_S5000x128_1_0_0_1_n_n.rhsIdx (ix2 p q)
      ((contrEquiv1 dot_S5000x256_S256x128_S5000x128_1_0_0_1_n_n 256 rfl rfl).symm k) = ix2 k q := funext fun a => Fin.ext (by
    match a with
    | ⟨0, _⟩ => exact (rhs_row _ _).trans hk
    | ⟨1, _⟩ => exact rhs_col _ _)
  rw [el, er, shapeCast_self]
  rfl

/-! ## The whole product, entry by entry -/

/-- Entry (r, q) of X · W: the sum over the 256 columns of X's row r against W's column q. -/
theorem lin0_apply (X : (⟨S100000x256, .f32⟩ : BufTy).Contents (Elt Ideal)) (W : (⟨S256x128, .f32⟩ : BufTy).Contents (Elt Ideal))
    (r : Fin 100000) (q : Fin 128) :
    Cert.Gcn.lin0 (F := Ideal) X W (ix2 r q) = ∑ k : Fin 256, X (ix2 r k) * W (ix2 k q) := by
  unfold Cert.Gcn.lin0
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 r q)
      ((contrEquiv1 Cert.ReferenceIdeal.dot_S100000x256_S256x128_S100000x128_1_0_0_1_n_n 256 rfl rfl).symm k) = ix2 r k := funext fun a => Fin.ext (by
    match a with
    | ⟨0, _⟩ => exact Cert.ReferenceIdeal.Read.lhs_main_v1_0 _ _
    | ⟨1, _⟩ => exact (Cert.ReferenceIdeal.Read.lhs_main_v1_1 _ _).trans hk)
  have er : Cert.ReferenceIdeal.dot_S100000x256_S256x128_S100000x128_1_0_0_1_n_n.rhsIdx (ix2 r q)
      ((contrEquiv1 Cert.ReferenceIdeal.dot_S100000x256_S256x128_S100000x128_1_0_0_1_n_n 256 rfl rfl).symm k) = ix2 k q := funext fun a => Fin.ext (by
    match a with
    | ⟨0, _⟩ => exact (Cert.ReferenceIdeal.Read.rhs_main_v1_0 _ _).trans hk
    | ⟨1, _⟩ => exact Cert.ReferenceIdeal.Read.rhs_main_v1_1 _ _)
  rw [el, er]

/-! ## A block of the whole product is the product of the block -/

/-- Let `x0` be rows 5000·n … 5000·n+4999 of X (read through `i0`), `x1` all of W (through `i1`), and let `i2` place a
    block entry at the same rows of the output. Then the body's result at (p, q) is the whole product's entry there:
    both are the sum over k of X (5000·n + p, k) · W (k, q). -/
theorem block_of_product (X : (⟨S100000x256, .f32⟩ : BufTy).Contents (Elt Ideal)) (W : (⟨S256x128, .f32⟩ : BufTy).Contents (Elt Ideal))
    (x0 : Vec Ideal S5000x256 .f32) (x1 : Vec Ideal S256x128 .f32)
    (i0 : S5000x256.Idx → S100000x256.Idx) (i1 : S256x128.Idx → S256x128.Idx) (i2 : S5000x128.Idx → S100000x128.Idx)
    (h0 : ∀ y, x0 y = X (i0 y)) (h1 : ∀ y, x1 y = W (i1 y)) (n : Nat)
    (e0r : ∀ y, (i0 y 0).val = n * 5000 + (y 0).val) (e0c : ∀ y, (i0 y 1).val = (y 1).val)
    (e1r : ∀ y, (i1 y 0).val = (y 0).val) (e1c : ∀ y, (i1 y 1).val = (y 1).val)
    (e2r : ∀ y, (i2 y 0).val = n * 5000 + (y 0).val) (e2c : ∀ y, (i2 y 1).val = (y 1).val)
    (p : Fin 5000) (q : Fin 128) :
    k0_pay1 (F := Ideal) x0 x1 (ix2 p q) = Cert.Gcn.lin0 (F := Ideal) X W (i2 (ix2 p q)) := by
  obtain ⟨r, q', hrq⟩ : ∃ (r : Fin 100000) (q' : Fin 128), i2 (ix2 p q) = ix2 r q' := ⟨_, _, eq_ix2 _⟩
  have hr : r.val = n * 5000 + p.val := (congrArg Fin.val (congrFun hrq 0)).symm.trans (e2r (ix2 p q))
  have hq : q'.val = q.val := (congrArg Fin.val (congrFun hrq 1)).symm.trans (e2c (ix2 p q))
  rw [hrq, lin0_apply, block_product_apply]
  refine Finset.sum_congr rfl fun k _ => ?_
  have a0 : i0 (ix2 p k) = ix2 r k := funext fun a => Fin.ext (by
    match a with
    | ⟨0, _⟩ => exact (e0r (ix2 p k)).trans hr.symm
    | ⟨1, _⟩ => exact e0c (ix2 p k))
  have a1 : i1 (ix2 k q) = ix2 k q' := funext fun a => Fin.ext (by
    match a with
    | ⟨0, _⟩ => exact e1r (ix2 k q)
    | ⟨1, _⟩ => exact (e1c (ix2 k q)).trans hq.symm)
  rw [h0, h1, a0, a1]

/-! ## The index maps over the grid -/

theorem zero_offsets : (![0, 0] : Fin 2 → Nat) = fun _ => 0 := funext fun a => by fin_cases a <;> rfl

/-- At point `t` the block of X and the block of the output are row block `t` (all columns), and the weight's block is
    the whole weight: the printed index maps, decided over the twenty points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What a point writes back, and the array after the twenty points -/

/-- Point `t` writes back block `t` of the whole product of the arrays as the region found them. -/
theorem flushed_eq (c : Dev nD) (t : Fin cfg0.N) :
    (dat0 (F := Ideal) V c).flushed 2 t
      = ((cfg0.win 2).blk t).view.read (Elt Ideal) (Cert.Gcn.lin0 (F := Ideal) (V c main_arg0) (V c main_v0)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨e00, e01, e10, e11, e20, e21⟩ := index_facts t
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.lin0 (F := Ideal) (V c main_arg0) (V c main_v0) (((cfg0.win 2).blk t).view.emb (ix2 p q))
  exact block_of_product (V c main_arg0) (V c main_v0) (iblk0 V c 0 t) (iblk0 V c 1 t)
    ((cfg0.win 0).blk t).view.emb ((cfg0.win 1).blk t).view.emb ((cfg0.win 2).blk t).view.emb
    (fun y => rfl) (fun y => rfl) t.val
    (fun y => by show win0_0.index t (0 : Fin 2) * 5000 + 1 * (y 0).val = _; rw [e00]; omega)
    (fun y => by show win0_0.index t (1 : Fin 2) * 256 + 1 * (y 1).val = _; rw [e01]; omega)
    (fun y => by show win0_1.index t (0 : Fin 2) * 256 + 1 * (y 0).val = _; rw [e10]; omega)
    (fun y => by show win0_1.index t (1 : Fin 2) * 128 + 1 * (y 1).val = _; rw [e11]; omega)
    (fun y => by show win0_2.index t (0 : Fin 2) * 5000 + 1 * (y 0).val = _; rw [e20]; omega)
    (fun y => by show win0_2.index t (1 : Fin 2) * 128 + 1 * (y 1).val = _; rw [e21]; omega)
    p q

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v3).slice (win0_2.rect t)).set ↔ _
  rw [View.set_slice_whole, Rect.mem_set_unit]
  exact Iff.rfl

/-- Every entry of the output is written: row r lies in the block of point r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < grid0.N := by rw [N_0]; omega
  obtain ⟨-, -, -, -, e20, e21⟩ := index_facts ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20']; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e21]; omega

/-- After the region's twenty points the output array is the whole product X · W0ᵀ of the arrays the region found. -/
theorem arr0 (c : Dev nD) : (dat0 (F := Ideal) V c).arrAt 2 cfg0.N = Cert.Gcn.lin0 (V c main_arg0) (V c main_v0) :=
  (dat0 (F := Ideal) V c).arrAt_eq_of_cover 2 (Cert.Gcn.lin0 (F := Ideal) (V c main_arg0) (V c main_v0))
    (fun t _ => flushed_eq V c t) covered

end Cert.KernelIdeal.GcnMatmul0

end
-- ==== Proof.Matmul1.lean ====
/-
  The second dense product: relu(Z) · Wh0ᵀ, 100000 × 128 times 128 × 128, with the relu done inside the region.

  The region walks the rows of Z in twenty blocks of 5000. At a point it holds rows 5000·t … 5000·t+4999 of Z and the
  whole (already transposed) weight; it replaces every entry of the block by its maximum with zero and writes the
  5000 × 128 product of that with the weight into the same rows of the output. Entry (p, q) of a block's product is the sum
  over k of relu (block row p, column k) times (weight row k, column q); row p of the block at point t is row 5000·t + p of
  Z, and the maximum with zero acts entry by entry, so this is entry (5000·t + p, q) of the one whole product
  relu(Z) · W. A row of a product depends only on the same row of the left factor, which is why the blocks of the whole
  product are the products of the blocks; no property of the sums beyond re-indexing is used. The twenty blocks cover every
  row (row r is in the block of point r / 5000), so after the region the output array is the whole product.
-/
import proofs.«112193_j90031104459077_2_alg».proof.Proof.Gen.KernelIdeal.Frame
import proofs.«112193_j90031104459077_2_alg».proof.Proof.Stages
import Idealize.ShloMosaic.Lib.Pipeline.Value
import Idealize.ShloMosaic.Lib.ValueIdx
import Idealize.ShloMosaic.PureOps.Ideal.Laws

noncomputable section

namespace Cert.KernelIdeal.GcnMatmul1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## relu of one entry -/

/-- The maximum of an entry with the f32 zero (the same zero word in the body's splat and in the array the whole-array
    relu compares with; it is never evaluated). -/
abbrev relu (z : Ideal .f32) : Ideal .f32 := FloatOps.maximumf (F := Ideal) (φ := .f32) z (FloatOps.ofBits .f32 0x00000000#32)

/-- The whole-array relu acts entry by entry: its zero array is the zero word broadcast to every index. -/
theorem relu128_apply (Z : (⟨S100000x128, .f32⟩ : BufTy).Contents (Elt Ideal)) (i : S100000x128.Idx) :
    Cert.Gcn.relu128 (F := Ideal) Z i = relu (Z i) := by
  unfold Cert.Gcn.relu128
  show FloatOps.maximumf (F := Ideal) (φ := .f32) (Z i) (Cert.ReferenceIdeal.Read.val_main_call0_v0 (F := Ideal) i) = _
  rw [Cert.ReferenceIdeal.Read.val_main_call0_v0_apply, Cert.ReferenceIdeal.Read.val_main_call0_cst_apply]

/-! ## A block's product, entry by entry -/

/-- Where the product's dimension numbers read the left factor: row of the output entry, column the contraction position. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- Where they read the right factor: row the contraction position, column of the output entry. -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of the body's result on a block `x0` of Z and the weight `x1`: the reshapes are to the same shapes and
    the narrowing to bf16 is the identity on the ideal values, so it is the sum over the 128 columns of the relu of the
    block's entry times the weight's. -/
theorem block_product_apply (x0 : Vec Ideal S5000x128 .f32) (x1 : Vec Ideal S128x128 .f32) (p : Fin 5000) (q : Fin 128) :
    k1_pay1 (F := Ideal) x0 x1 (ix2 p q) = ∑ k : Fin 128, relu (x0 (ix2 p k)) * x1 (ix2 k q) := by
  unfold k1_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  simp only [shapeCast_self]
  rfl

/-! ## The whole product, entry by entry -/

/-- Entry (r, q) of Y · W: the sum over the 128 columns of Y's row r against W's column q. -/
theorem lin1_apply (Y : (⟨S100000x128, .f32⟩ : BufTy).Contents (Elt Ideal)) (W : (⟨S128x128, .f32⟩ : BufTy).Contents (Elt Ideal))
    (r : Fin 100000) (q : Fin 128) :
    Cert.Gcn.lin1 (F := Ideal) Y W (ix2 r q) = ∑ k : Fin 128, Y (ix2 r k) * W (ix2 k q) := by
  unfold Cert.Gcn.lin1
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.Read.lhs_main_v17_0 _ _
    | ⟨1, _⟩ => exact (Cert.ReferenceIdeal.Read.lhs_main_v17_1 _ _).trans hk)
  have er : Cert.ReferenceIdeal.dot_S100000x128_S128x128_S100000x128_1_0_0_1_n_n.rhsIdx (ix2 r q)
      ((contrEquiv1 Cert.ReferenceIdeal.dot_S100000x128_S128x128_S100000x128_1_0_0_1_n_n 128 rfl rfl).symm k) = ix2 k q := funext fun a => Fin.ext (by
    match a with
    | ⟨0, _⟩ => exact (Cert.ReferenceIdeal.Read.rhs_main_v17_0 _ _).trans hk
    | ⟨1, _⟩ => exact Cert.ReferenceIdeal.Read.rhs_main_v17_1 _ _)
  rw [el, er]

/-! ## A block of the whole product is the product of the block -/

/-- Let `x0` be rows 5000·n … 5000·n+4999 of Z (read through `i0`), `x1` all of W (through `i1`), and let `i2` place a
    block entry at the same rows of the output. Then the body's result at (p, q) is the entry of relu(Z) · W there:
    both are the sum over k of relu (Z (5000·n + p, k)) · W (k, q). -/
theorem block_of_product (Z : (⟨S100000x128, .f32⟩ : BufTy).Contents (Elt Ideal)) (W : (⟨S128x128, .f32⟩ : BufTy).Contents (Elt Ideal))
    (x0 : Vec Ideal S5000x128 .f32) (x1 : Vec Ideal S128x128 .f32)
    (i0 : S5000x128.Idx → S100000x128.Idx) (i1 : S128x128.Idx → S128x128.Idx) (i2 : S5000x128.Idx → S100000x128.Idx)
    (h0 : ∀ y, x0 y = Z (i0 y)) (h1 : ∀ y, x1 y = W (i1 y)) (n : Nat)
    (e0r : ∀ y, (i0 y 0).val = n * 5000 + (y 0).val) (e0c : ∀ y, (i0 y 1).val = (y 1).val)
    (e1r : ∀ y, (i1 y 0).val = (y 0).val) (e1c : ∀ y, (i1 y 1).val = (y 1).val)
    (e2r : ∀ y, (i2 y 0).val = n * 5000 + (y 0).val) (e2c : ∀ y, (i2 y 1).val = (y 1).val)
    (p : Fin 5000) (q : Fin 128) :
    k1_pay1 (F := Ideal) x0 x1 (ix2 p q) = Cert.Gcn.lin1 (F := Ideal) (Cert.Gcn.relu128 (F := Ideal) Z) W (i2 (ix2 p q)) := by
  obtain ⟨r, q', hrq⟩ : ∃ (r : Fin 100000) (q' : Fin 128), i2 (ix2 p q) = ix2 r q' := ⟨_, _, eq_ix2 _⟩
  have hr : r.val = n * 5000 + p.val := (congrArg Fin.val (congrFun hrq 0)).symm.trans (e2r (ix2 p q))
  have hq : q'.val = q.val := (congrArg Fin.val (congrFun hrq 1)).symm.trans (e2c (ix2 p q))
  rw [hrq, lin1_apply, block_product_apply]
  refine Finset.sum_congr rfl fun k _ => ?_
  have a0 : i0 (ix2 p k) = ix2 r k := funext fun a => Fin.ext (by
    match a with
    | ⟨0, _⟩ => exact (e0r (ix2 p k)).trans hr.symm
    | ⟨1, _⟩ => exact e0c (ix2 p k))
  have a1 : i1 (ix2 k q) = ix2 k q' := funext fun a => Fin.ext (by
    match a with
    | ⟨0, _⟩ => exact e1r (ix2 k q)
    | ⟨1, _⟩ => exact (e1c (ix2 k q)).trans hq.symm)
  rw [relu128_apply, h0, h1, a0, a1]

/-! ## The index maps over the grid -/

theorem zero_offsets : (![0, 0] : Fin 2 → Nat) = fun _ => 0 := funext fun a => by fin_cases a <;> rfl

/-- At point `t` the block of Z and the block of the output are row block `t` (all columns), and the weight's block is
    the whole weight: the printed index maps, decided over the twenty points. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## What a point writes back, and the array after the twenty points -/

/-- Point `t` writes back block `t` of the whole product relu(Z) · W of the arrays as the region found them. -/
theorem flushed_eq (c : Dev nD) (t : Fin cfg1.N) :
    (dat1 (F := Ideal) V c).flushed 2 t
      = ((cfg1.win 2).blk t).view.read (Elt Ideal)
          (Cert.Gcn.lin1 (F := Ideal) (Cert.Gcn.relu128 (F := Ideal) (V c main_v16)) (V c main_v1)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e00, e01, e10, e11, e20, e21⟩ := index_facts t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = Cert.Gcn.lin1 (F := Ideal) (Cert.Gcn.relu128 (F := Ideal) (V c main_v16)) (V c main_v1) (((cfg1.win 2).blk t).view.emb (ix2 p q))
  exact block_of_product (V c main_v16) (V c main_v1) (iblk1 V c 0 t) (iblk1 V c 1 t)
    ((cfg1.win 0).blk t).view.emb ((cfg1.win 1).blk t).view.emb ((cfg1.win 2).blk t).view.emb
    (fun y => rfl) (fun y => rfl) t.val
    (fun y => by show win1_0.index t (0 : Fin 2) * 5000 + 1 * (y 0).val = _; rw [e00]; omega)
    (fun y => by show win1_0.index t (1 : Fin 2) * 128 + 1 * (y 1).val = _; rw [e01]; omega)
    (fun y => by show win1_1.index t (0 : Fin 2) * 128 + 1 * (y 0).val = _; rw [e10]; omega)
    (fun y => by show win1_1.index t (1 : Fin 2) * 128 + 1 * (y 1).val = _; rw [e11]; omega)
    (fun y => by show win1_2.index t (0 : Fin 2) * 5000 + 1 * (y 0).val = _; rw [e20]; omega)
    (fun y => by show win1_2.index t (1 : Fin 2) * 128 + 1 * (y 1).val = _; rw [e21]; omega)
    p q

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v17).slice (win1_2.rect t)).set ↔ _
  rw [View.set_slice_whole, Rect.mem_set_unit]
  exact Iff.rfl

/-- Every entry of the output is written: row r lies in the block of point r / 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < grid1.N := by rw [N_1]; omega
  obtain ⟨-, -, -, -, e20, e21⟩ := index_facts ⟨(i 0).val / 5000, ht⟩
  have e20' : win1_2.index ⟨(i 0).val / 5000, ht⟩ (0 : Fin 2) = (i 0).val / 5000 := e20
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20']; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e21]; omega

/-- After the region's twenty points the output array is the whole product relu(Z) · Wh0ᵀ of the arrays the region found. -/
theorem arr1 (c : Dev nD) : (dat1 (F := Ideal) V c).arrAt 2 cfg1.N
    = Cert.Gcn.lin1 (Cert.Gcn.relu128 (V c main_v16)) (V c main_v1) :=
  (dat1 (F := Ideal) V c).arrAt_eq_of_cover 2 (Cert.Gcn.lin1 (F := Ideal) (Cert.Gcn.relu128 (F := Ideal) (V c main_v16)) (V c main_v1))
    (fun t _ => flushed_eq V c t) covered

end Cert.KernelIdeal.GcnMatmul1

end
-- ==== Proof.Matmul2.lean ====
/-
  The third dense product: relu(Z) · W1ᵀ, 100000 × 128 times 128 × 64, with the relu done inside the region.

  The region walks the rows of Z in twenty blocks of 5000. At a point it holds rows 5000·t … 5000·t+4999 of Z and the
  whole (already transposed) weight; it replaces every entry of the block by its maximum with zero and writes the
  5000 × 64 product of that with the weight into the same rows of the output. Entry (p, q) of a block's product is the sum
  over k of relu (block row p, column k) times (weight row k, column q); row p of the block at point t is row 5000·t + p of
  Z, and the maximum with zero acts entry by entry, so this is entry (5000·t + p, q) of the one whole product
  relu(Z) · W. A row of a product depends only on the same row of the left factor, which is why the blocks of the whole
  product are the products of the blocks; no property of the sums beyond re-indexing is used. The twenty blocks cover every
  row (row r is in the block of point r / 5000), so after the region the output array is the whole product.
-/
import proofs.«112193_j90031104459077_2_alg».proof.Proof.Gen.KernelIdeal.Frame
import proofs.«112193_j90031104459077_2_alg».proof.Proof.Stages
import Idealize.ShloMosaic.Lib.Pipeline.Value
import Idealize.ShloMosaic.Lib.ValueIdx
import Idealize.ShloMosaic.PureOps.Ideal.Laws

noncomputable section

namespace Cert.KernelIdeal.GcnMatmul2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## relu of one entry -/

/-- The maximum of an entry with the f32 zero (the same zero word in the body's splat and in the array the whole-array
    relu compares with; it is never evaluated). -/
abbrev relu (z : Ideal .f32) : Ideal .f32 := FloatOps.maximumf (F := Ideal) (φ := .f32) z (FloatOps.ofBits .f32 0x00000000#32)

/-- The whole-array relu acts entry by entry: its zero array is the zero word broadcast to every index. -/
theorem relu128_apply (Z : (⟨S100000x128, .f32⟩ : BufTy).Contents (Elt Ideal)) (i : S100000x128.Idx) :
    Cert.Gcn.relu128 (F := Ideal) Z i = relu (Z i) := by
  unfold Cert.Gcn.relu128
  show FloatOps.maximumf (F := Ideal) (φ := .f32) (Z i) (Cert.ReferenceIdeal.Read.val_main_call0_v0 (F := Ideal) i) = _
  rw [Cert.ReferenceIdeal.Read.val_main_call0_v0_apply, Cert.ReferenceIdeal.Read.val_main_call0_cst_apply]

/-! ## A block's product, entry by entry -/

/-- Where the product's dimension numbers read the left factor: row of the output entry, column the contraction position. -/
theorem lhs_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_col (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- Where they read the right factor: row the contraction position, column of the output entry. -/
theorem rhs_row (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
theorem rhs_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry (p, q) of the body's result on a block `x0` of Z and the weight `x1`: the reshapes are to the same shapes and
    the narrowing to bf16 is the identity on the ideal values, so it is the sum over the 128 columns of the relu of the
    block's entry times the weight's. -/
theorem block_product_apply (x0 : Vec Ideal S5000x128 .f32) (x1 : Vec Ideal S128x64 .f32) (p : Fin 5000) (q : Fin 64) :
    k2_pay1 (F := Ideal) x0 x1 (ix2 p q) = ∑ k : Fin 128, relu (x0 (ix2 p k)) * x1 (ix2 k q) := by
  unfold k2_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q)
      ((contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]
  simp only [shapeCast_self]
  rfl

/-! ## The whole product, entry by entry -/

/-- Entry (r, q) of Y · W: the sum over the 128 columns of Y's row r against W's column q. -/
theorem lin2_apply (Y : (⟨S100000x128, .f32⟩ : BufTy).Contents (Elt Ideal)) (W : (⟨S128x64, .f32⟩ : BufTy).Contents (Elt Ideal))
    (r : Fin 100000) (q : Fin 64) :
    Cert.Gcn.lin2 (F := Ideal) Y W (ix2 r q) = ∑ k : Fin 128, Y (ix2 r k) * W (ix2 k q) := by
  unfold Cert.Gcn.lin2
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q)
      ((contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.Read.lhs_main_v33_0 _ _
    | ⟨1, _⟩ => exact (Cert.ReferenceIdeal.Read.lhs_main_v33_1 _ _).trans hk)
  have er : Cert.ReferenceIdeal.dot_S100000x128_S128x64_S100000x64_1_0_0_1_n_n.rhsIdx (ix2 r q)
      ((contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.Read.rhs_main_v33_0 _ _).trans hk
    | ⟨1, _⟩ => exact Cert.ReferenceIdeal.Read.rhs_main_v33_1 _ _)
  rw [el, er]

/-! ## A block of the whole product is the product of the block -/

/-- Let `x0` be rows 5000·n … 5000·n+4999 of Z (read through `i0`), `x1` all of W (through `i1`), and let `i2` place a
    block entry at the same rows of the output. Then the body's result at (p, q) is the entry of relu(Z) · W there:
    both are the sum over k of relu (Z (5000·n + p, k)) · W (k, q). -/
theorem block_of_product (Z : (⟨S100000x128, .f32⟩ : BufTy).Contents (Elt Ideal)) (W : (⟨S128x64, .f32⟩ : BufTy).Contents (Elt Ideal))
    (x0 : Vec Ideal S5000x128 .f32) (x1 : Vec Ideal S128x64 .f32)
    (i0 : S5000x128.Idx → S100000x128.Idx) (i1 : S128x64.Idx → S128x64.Idx) (i2 : S5000x64.Idx → S100000x64.Idx)
    (h0 : ∀ y, x0 y = Z (i0 y)) (h1 : ∀ y, x1 y = W (i1 y)) (n : Nat)
    (e0r : ∀ y, (i0 y 0).val = n * 5000 + (y 0).val) (e0c : ∀ y, (i0 y 1).val = (y 1).val)
    (e1r : ∀ y, (i1 y 0).val = (y 0).val) (e1c : ∀ y, (i1 y 1).val = (y 1).val)
    (e2r : ∀ y, (i2 y 0).val = n * 5000 + (y 0).val) (e2c : ∀ y, (i2 y 1).val = (y 1).val)
    (p : Fin 5000) (q : Fin 64) :
    k2_pay1 (F := Ideal) x0 x1 (ix2 p q) = Cert.Gcn.lin2 (F := Ideal) (Cert.Gcn.relu128 (F := Ideal) Z) W (i2 (ix2 p q)) := by
  obtain ⟨r, q', hrq⟩ : ∃ (r : Fin 100000) (q' : Fin 64), i2 (ix2 p q) = ix2 r q' := ⟨_, _, eq_ix2 _⟩
  have hr : r.val = n * 5000 + p.val := (congrArg Fin.val (congrFun hrq 0)).symm.trans (e2r (ix2 p q))
  have hq : q'.val = q.val := (congrArg Fin.val (congrFun hrq 1)).symm.trans (e2c (ix2 p q))
  rw [hrq, lin2_apply, block_product_apply]
  refine Finset.sum_congr rfl fun k _ => ?_
  have a0 : i0 (ix2 p k) = ix2 r k := funext fun a => Fin.ext (by
    match a with
    | ⟨0, _⟩ => exact (e0r (ix2 p k)).trans hr.symm
    | ⟨1, _⟩ => exact e0c (ix2 p k))
  have a1 : i1 (ix2 k q) = ix2 k q' := funext fun a => Fin.ext (by
    match a with
    | ⟨0, _⟩ => exact e1r (ix2 k q)
    | ⟨1, _⟩ => exact (e1c (ix2 k q)).trans hq.symm)
  rw [relu128_apply, h0, h1, a0, a1]

/-! ## The index maps over the grid -/

theorem zero_offsets : (![0, 0] : Fin 2 → Nat) = fun _ => 0 := funext fun a => by fin_cases a <;> rfl

/-- At point `t` the block of Z and the block of the output are row block `t` (all columns), and the weight's block is
    the whole weight: the printed index maps, decided over the twenty points. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## What a point writes back, and the array after the twenty points -/

/-- Point `t` writes back block `t` of the whole product relu(Z) · W of the arrays as the region found them. -/
theorem flushed_eq (c : Dev nD) (t : Fin cfg2.N) :
    (dat2 (F := Ideal) V c).flushed 2 t
      = ((cfg2.win 2).blk t).view.read (Elt Ideal)
          (Cert.Gcn.lin2 (F := Ideal) (Cert.Gcn.relu128 (F := Ideal) (V c main_v30)) (V c main_v2)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  obtain ⟨e00, e01, e10, e11, e20, e21⟩ := index_facts t
  refine funext fun (j : S5000x64.Idx) => ?_
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = Cert.Gcn.lin2 (F := Ideal) (Cert.Gcn.relu128 (F := Ideal) (V c main_v30)) (V c main_v2) (((cfg2.win 2).blk t).view.emb (ix2 p q))
  exact block_of_product (V c main_v30) (V c main_v2) (iblk2 V c 0 t) (iblk2 V c 1 t)
    ((cfg2.win 0).blk t).view.emb ((cfg2.win 1).blk t).view.emb ((cfg2.win 2).blk t).view.emb
    (fun y => rfl) (fun y => rfl) t.val
    (fun y => by show win2_0.index t (0 : Fin 2) * 5000 + 1 * (y 0).val = _; rw [e00]; omega)
    (fun y => by show win2_0.index t (1 : Fin 2) * 128 + 1 * (y 1).val = _; rw [e01]; omega)
    (fun y => by show win2_1.index t (0 : Fin 2) * 128 + 1 * (y 0).val = _; rw [e10]; omega)
    (fun y => by show win2_1.index t (1 : Fin 2) * 64 + 1 * (y 1).val = _; rw [e11]; omega)
    (fun y => by show win2_2.index t (0 : Fin 2) * 5000 + 1 * (y 0).val = _; rw [e20]; omega)
    (fun y => by show win2_2.index t (1 : Fin 2) * 64 + 1 * (y 1).val = _; rw [e21]; omega)
    p q

/-- An index of the output array is in point `t`'s block iff each coordinate is in the block's range on its axis. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v31).slice (win2_2.rect t)).set ↔ _
  rw [View.set_slice_whole, Rect.mem_set_unit]
  exact Iff.rfl

/-- Every entry of the output is written: row r lies in the block of point r / 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 5000 < grid2.N := by rw [N_2]; omega
  obtain ⟨-, -, -, -, e20, e21⟩ := index_facts ⟨(i 0).val / 5000, ht⟩
  have e20' : win2_2.index ⟨(i 0).val / 5000, ht⟩ (0 : Fin 2) = (i 0).val / 5000 := e20
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e20']; omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    rw [e21]; omega

/-- After the region's twenty points the output array is the whole product relu(Z) · W1ᵀ of the arrays the region found. -/
theorem arr2 (c : Dev nD) : (dat2 (F := Ideal) V c).arrAt 2 cfg2.N
    = Cert.Gcn.lin2 (Cert.Gcn.relu128 (V c main_v30)) (V c main_v2) :=
  (dat2 (F := Ideal) V c).arrAt_eq_of_cover 2 (Cert.Gcn.lin2 (F := Ideal) (Cert.Gcn.relu128 (F := Ideal) (V c main_v30)) (V c main_v2))
    (fun t _ => flushed_eq V c t) covered

end Cert.KernelIdeal.GcnMatmul2

end
-- ==== Proof.Softmax.lean ====
/-
  The last region of the pipeline: the row softmax of a 100000 × 64 array, computed twenty blocks of 5000 rows at a time.

  A row's softmax depends on that row alone: with  M = max (-∞, z₀, …, z₆₃)  the entry in column q is
      exp (z_q − M) / Σ_k exp (z_k − M).
  The kernel's body applies this to each of the 5000 rows of its block, the reference to each of the 100000 rows of the
  whole array (taking the maximum with -∞ once more, which changes nothing); both use the same maximum, subtraction,
  exponential, sum and quotient, so no property of the entries is needed. Block t holds rows 5000·t … 5000·t + 4999 and
  the twenty blocks tile the array, so the array the region leaves is the row softmax of the array it found.
-/
import proofs.«112193_j90031104459077_2_alg».proof.Proof.Gen.KernelIdeal.Frame
import proofs.«112193_j90031104459077_2_alg».proof.Proof.Stages
import Idealize.ShloMosaic.Lib.Pipeline.Value
import Idealize.ShloMosaic.Lib.ValueIdx
import Idealize.ShloMosaic.PureOps.Ideal.Laws

noncomputable section

namespace Cert.KernelIdeal.GcnSoftmax

open Cert.KernelIdeal Cert.KernelIdeal.Gen Idealize.ShloMosaic Idealize.ShloMosaic.TcCoe Idealize.SL.Sem
open Idealize.ShloMosaic.Pipeline (Dat)
open Idealize.ShloMosaic.ValueIdx

/-! ## One row -/

/-- The maximum of a row of 64 extended reals, starting from -∞ (the word 0xFF800000). -/
def rowMax (f : Fin 64 → EReal) : EReal :=
  (Finset.univ : Finset (Fin 64)).fold max (Ideal.ofBits .f32 0xFF800000#32) f

/-- The softmax of a row of 64 extended reals, at column `q`. -/
def rowSoftmax (f : Fin 64 → EReal) (q : Fin 64) : EReal :=
  Ideal.div (Ideal.exp (f q - rowMax f)) (∑ k : Fin 64, Ideal.exp (f k - rowMax f))

/-- The word 0xFF800000 is -∞. -/
theorem negInf_eq_bot : Ideal.ofBits .f32 0xFF800000#32 = (⊥ : EReal) := by
  simp [Ideal.ofBits, Ideal.ieee]

/-! ## The kernel's body on one block, row by row -/

/-- The index of row `p`, column `k` of a 5000 × 64 block, from the reduced index of row `p`. -/
theorem lift_row (p : Fin 5000) (k : Fin 64) : reduces_S5000x64_S5000.lift (ix1 p) k = ix2 p k :=
  funext fun a => Fin.ext (by match a with | ⟨0, _⟩ => rfl | ⟨1, _⟩ => rfl)

/-- The row maxima of a 5000 × 64 block, as the body takes them. -/
theorem blockMax_apply (x : FVec Ideal S5000x64 .f32) (hφ : FKind.Formats .f32)
    (hacc : (0xFF800000#32 : BitVec 32) = 0xFF800000#32) (p : Fin 5000) :
    multiReduction (F := Ideal) .maximumf [1] S5000 x 0xFF800000#32 reduces_S5000x64_S5000 hφ hacc (ix1 p)
      = rowMax (fun k => x (ix2 p k)) := by
  refine (Ideal.multiReduction_maximumf_single x 0xFF800000#32 reduces_S5000x64_S5000 hφ hacc (ix1 p)).trans ?_
  unfold rowMax
  exact congrArg (Finset.univ.fold max _) (funext fun k => congrArg x (lift_row p k))

/-- The row sums of a 5000 × 64 block, as the body takes them. -/
theorem blockSum_apply (x : FVec Ideal S5000x64 .f32) (hφ : FKind.Formats .f32)
    (hacc : (0x00000000#32 : BitVec 32) = 0x00000000#32) (p : Fin 5000) :
    multiReduction (F := Ideal) .add [1] S5000 x 0x00000000#32 reduces_S5000x64_S5000 hφ hacc (ix1 p)
      = ∑ k : Fin 64, x (ix2 p k) := by
  refine (Ideal.multiReduction_add_single x 0x00000000#32 reduces_S5000x64_S5000 hφ hacc (ix1 p)).trans ?_
  exact Finset.sum_congr rfl fun k _ => congrArg x (lift_row p k)

/-- A vector of 5000 row values, viewed as a column and repeated along the 64 columns, reads row `p`'s value
    everywhere in row `p`. -/
theorem column_apply {α : Type} (u : S5000.Idx → α) (p : Fin 5000) (q : Fin 64) :
    broadcastTo S5000x64 (shapeCast S5000x1 u shapeCasts_S5000_S5000x1) broadcasts_S5000x1_S5000x64 (ix2 p q) = u (ix1 p) := by
  refine (broadcastTo_apply _ broadcasts_S5000x1_S5000x64 (ix2 p q) (ix2 p (0 : Fin 1)) (fun a => ?_)).trans ?_
  · match a with
    | ⟨0, _⟩ => show p.val = if (5000 : Nat) = 1 then 0 else p.val; rw [if_neg (by decide)]
    | ⟨1, _⟩ => show 0 = if (1 : Nat) = 1 then 0 else q.val; rw [if_pos rfl]
  · refine shapeCast_apply u shapeCasts_S5000_S5000x1 (ix2 p (0 : Fin 1)) (ix1 p) ?_
    rw [Shape.rowMajor_val_one, Shape.rowMajor_val_two]
    show p.val = p.val * 1 + 0
    omega

/-- exp (x − its row's value), read at one entry. -/
theorem shifted_apply (x : FVec Ideal S5000x64 .f32) (u : S5000.Idx → EReal) (p : Fin 5000) (k : Fin 64) :
    exp (subf x (broadcastTo S5000x64 (shapeCast S5000x1 u shapeCasts_S5000_S5000x1) broadcasts_S5000x1_S5000x64)) (ix2 p k)
      = Ideal.exp (x (ix2 p k) - u (ix1 p)) :=
  congrArg (fun m => Ideal.exp (x (ix2 p k) - m)) (column_apply u p k)

/-- exp (x − its row's maximum), read at one entry. -/
theorem shiftedMax_apply (x : FVec Ideal S5000x64 .f32) (hφ : FKind.Formats .f32)
    (hacc : (0xFF800000#32 : BitVec 32) = 0xFF800000#32) (p : Fin 5000) (k : Fin 64) :
    exp (subf x (broadcastTo S5000x64 (shapeCast S5000x1
        (multiReduction (F := Ideal) .maximumf [1] S5000 x 0xFF800000#32 reduces_S5000x64_S5000 hφ hacc)
        shapeCasts_S5000_S5000x1) broadcasts_S5000x1_S5000x64)) (ix2 p k)
      = Ideal.exp (x (ix2 p k) - rowMax (fun k => x (ix2 p k))) :=
  (shifted_apply x _ p k).trans (congrArg (fun m => Ideal.exp (x (ix2 p k) - m)) (blockMax_apply x hφ hacc p))

/-- THE BODY AT ONE ENTRY: the row softmax of the entry's row of the block. -/
theorem body_apply (x0 : Vec Ideal S5000x64 .f32) (p : Fin 5000) (q : Fin 64) :
    k3_pay1 (F := Ideal) x0 (ix2 p q) = rowSoftmax (fun k => x0 (ix2 p k)) q := by
  unfold k3_pay1
  dsimp only
  rw [shapeCast_self]
  unfold rowSoftmax
  rw [divf_apply, column_apply]
  exact congrArg₂ Ideal.div (shiftedMax_apply x0 _ _ p q)
    ((blockSum_apply _ _ _ p).trans (Finset.sum_congr rfl fun k _ => shiftedMax_apply x0 _ _ p k))

/-! ## The reference's softmax, row by row -/

section Host
open Cert.Gcn

/-- The index of row `r`, column `k` of the 100000 × 64 array, from the reduced index of row `r`. -/
theorem lift_row_host (h : Cert.ReferenceIdeal.S100000x64.Reduces [1] Cert.ReferenceIdeal.S100000) (r : Fin 100000) (k : Fin 64) :
    h.lift (ix1 r) k = ix2 r k :=
  funext fun a => Fin.ext (by match a with | ⟨0, _⟩ => rfl | ⟨1, _⟩ => rfl)

/-- A vector of 100000 row values, made a column and repeated along the 64 columns, reads row `r`'s value
    everywhere in row `r`. -/
theorem hostColumn_apply {α : Type} (u : Cert.ReferenceIdeal.S100000.Idx → α) (r : Fin 100000) (q : Fin 64) :
    broadcastInDim Cert.ReferenceIdeal.S100000x64 ![0, 1] Cert.ReferenceIdeal.Gen.bcast_S100000x1_S100000x64_0_1
      (broadcastInDim Cert.ReferenceIdeal.S100000x1 ![0] Cert.ReferenceIdeal.Gen.bcast_S100000_S100000x1_0 u) (ix2 r q) = u (ix1 r) := by
  refine (broadcastInDim_apply _ Cert.ReferenceIdeal.Gen.bcast_S100000x1_S100000x64_0_1 _ (ix2 r q) (ix2 r (0 : Fin 1)) (fun a => ?_)).trans ?_
  · match a with
    | ⟨0, _⟩ => show r.val = if (100000 : Nat) = 1 then 0 else r.val; rw [if_neg (by decide)]
    | ⟨1, _⟩ => show 0 = if (1 : Nat) = 1 then 0 else q.val; rw [if_pos rfl]
  · refine broadcastInDim_apply _ Cert.ReferenceIdeal.Gen.bcast_S100000_S100000x1_0 u (ix2 r (0 : Fin 1)) (ix1 r) (fun a => ?_)
    match a with
    | ⟨0, _⟩ => show r.val = if (100000 : Nat) = 1 then 0 else r.val; rw [if_neg (by decide)]

/-- The host's maximum over the columns, at row `r`: the fold of max from the initial value over the row. -/
theorem hostMax_apply (Z : FVec Ideal Cert.ReferenceIdeal.S100000x64 .f32) (init : Cert.ReferenceIdeal.S_.Idx → EReal)
    (h' : Cert.ReferenceIdeal.S100000x64.ReducesTo [1] Cert.ReferenceIdeal.S100000) (hu : 0 < Cert.ReferenceIdeal.S_.numel)
    (r : Fin 100000) :
    Host.reduce FloatOps.maximumf Z init h' hu (ix1 r)
      = (Finset.univ : Finset (Fin 64)).fold max (init (Shape.Idx.first hu)) (fun k => Z (ix2 r k)) := by
  refine (Host.reduce_eq_fold_single FloatOps.maximumf Z init h' (by decide) hu (ix1 r)).trans ?_
  exact congrArg (Finset.univ.fold max _) (funext fun k => congrArg Z (lift_row_host _ r k))

/-- The array of -∞ the reference takes the maximum against once more. -/
theorem negInf_splat (i : Cert.ReferenceIdeal.S100000.Idx) :
    Cert.ReferenceIdeal.Read.val_main_v48 (F := Ideal) i = Ideal.ofBits .f32 0xFF800000#32 := by
  rw [Cert.ReferenceIdeal.Read.val_main_v48_apply]; rfl

/-- The reference's row maximum (taken from -∞, then once more against -∞) is the row's maximum. -/
theorem rowMax64_apply (Z : Node64 (F := Ideal)) (r : Fin 100000) :
    rowMax64 Z (ix1 r) = rowMax (fun k => Z (ix2 r k)) := by
  unfold rowMax64
  refine (maximumf_apply _ _ (ix1 r)).trans ?_
  refine (congrArg₂ max (negInf_splat (ix1 r)) (hostMax_apply Z _ _ _ r)).trans ?_
  unfold rowMax
  rw [show Cert.ReferenceIdeal.Read.val_main_cst_7 (F := Ideal) (Shape.Idx.first Cert.ReferenceIdeal.Gen.h_S_)
    = Ideal.ofBits .f32 0xFF800000#32 from rfl, negInf_eq_bot]
  exact max_bot_left _

/-- The host's sum over the columns from the constant 0, at row `r`. -/
theorem hostSum_apply (Y : FVec Ideal Cert.ReferenceIdeal.S100000x64 .f32) (r : Fin 100000) :
    Host.reduceAdd Y (Cert.ReferenceIdeal.Read.val_main_cst_9 (F := Ideal)) Cert.ReferenceIdeal.Gen.reducesTo_S100000x64_S100000_d1
      Cert.ReferenceIdeal.Gen.h_S_ (ix1 r) = ∑ k : Fin 64, Y (ix2 r k) := by
  simp only [Host.reduceAdd, Ideal.hostReduceAdd_def]
  rw [Ideal.hostReduceAdd_single Cert.ReferenceIdeal.Gen.reducesTo_S100000x64_S100000_d1 (by decide)]
  rw [show Cert.ReferenceIdeal.Read.val_main_cst_9 (F := Ideal) (Shape.Idx.first Cert.ReferenceIdeal.Gen.h_S_) = 0
    from Ideal.ofBits_zero_f32, zero_add]
  exact Finset.sum_congr rfl fun k _ => congrArg Y (lift_row_host _ r k)

/-- The host's quotient at one entry. -/
theorem hostDivf_apply {s : Shape} (a b : FVec Ideal s .f32) (i : s.Idx) : Host.divf a b i = Ideal.div (a i) (b i) := rfl

/-- exp (Z − row maximum) at one entry. -/
theorem expShift64_apply (Z : Node64 (F := Ideal)) (r : Fin 100000) (k : Fin 64) :
    expShift64 Z (ix2 r k) = Ideal.exp (Z (ix2 r k) - rowMax (fun k => Z (ix2 r k))) := by
  unfold expShift64
  refine (congrArg (fun m => Ideal.exp (Z (ix2 r k) - m)) (hostColumn_apply (rowMax64 Z) r k)).trans ?_
  rw [rowMax64_apply]

/-- THE REFERENCE'S SOFTMAX AT ONE ENTRY: the row softmax of the entry's row. -/
theorem softmax64_apply (Z : Node64 (F := Ideal)) (r : Fin 100000) (q : Fin 64) :
    softmax64 Z (ix2 r q) = rowSoftmax (fun k => Z (ix2 r k)) q := by
  unfold softmax64 rowSoftmax
  rw [hostDivf_apply, hostColumn_apply, hostSum_apply]
  simp only [expShift64_apply]

/-- The same at an index given by its coordinates' values. -/
theorem softmax64_at (Z : Node64 (F := Ideal)) (i : Cert.ReferenceIdeal.S100000x64.Idx) (r : Fin 100000) (q : Fin 64)
    (h0 : (i 0).val = r.val) (h1 : (i 1).val = q.val) :
    softmax64 Z i = rowSoftmax (fun k => Z (ix2 r k)) q := by
  obtain rfl : i = ix2 r q := funext fun a => Fin.ext (by match a with | ⟨0, _⟩ => exact h0 | ⟨1, _⟩ => exact h1)
  exact softmax64_apply Z r q

end Host

/-! ## From blocks to the array -/

section Blocks

variable (V : (c : Dev nD) → (b : Ref sig .tc) → Buf (Elt Ideal) ((c : Thread nD τ).loc b))

/-- The body loads and stores its whole staging buffers: offsets zero on both axes. -/
theorem zero_offsets : (![0, 0] : Fin 2 → Nat) = fun _ => 0 := funext fun a => by fin_cases a <;> rfl

/-- The two windows' index maps over the grid: at point `t` both name block row `t`, block column 0. -/
theorem index_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- WHAT POINT `t` WRITES BACK is block `t` of the row softmax of the input array as the region found it: entry (p, q)
    of the block is the softmax of row p of the input block, which is row 5000·t + p of the array. -/
theorem flushed_eq (c : Dev nD) (t : Fin cfg3.N) :
    (dat3 (F := Ideal) V c).flushed 1 t
      = ((cfg3.win 1).blk t).view.read (Elt Ideal) (Cert.Gcn.softmax64 (V c main_v44)) := by
  show (cfg3.win 1).cut (grid3.coords t) ((dat3 V c).after 1 t) = _
  rw [after3_1]
  unfold out3_1
  rw [View.canon_unit_zero zero_offsets]
  simp only [View.ld_unit_zero (S := S5000x64) zero_offsets]
  obtain ⟨e00, e01, e10, e11⟩ := index_facts t
  have ht : t.val < 20 := lt_of_lt_of_eq t.isLt N_3
  funext j
  obtain ⟨p, q, rfl⟩ : ∃ (p : Fin 5000) (q : Fin 64), j = ix2 p q := ⟨j 0, j 1, eq_ix2 j⟩
  show k3_pay1 (iblk3 V c 0 t) (ix2 p q)
    = Cert.Gcn.softmax64 (V c main_v44) (((cfg3.win 1).blk t).view.emb (ix2 p q))
  refine (body_apply (iblk3 V c 0 t) p q).trans ?_
  refine Eq.trans ?_ (softmax64_at (V c main_v44) (((cfg3.win 1).blk t).view.emb (ix2 p q))
    ⟨t.val * 5000 + p.val, by have := p.isLt; omega⟩ q ?_ ?_).symm
  · refine congrArg (fun f => rowSoftmax f q) (funext fun k => ?_)
    show V c main_v44 (((cfg3.win 0).blk t).view.emb (ix2 p k)) = V c main_v44 _
    refine congrArg (V c main_v44) (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 64 + 1 * k.val = k.val; rw [e01]; omega
  · show win3_1.index t (0 : Fin 2) * 5000 + 1 * p.val = t.val * 5000 + p.val; rw [e10]; omega
  · show win3_1.index t (1 : Fin 2) * 64 + 1 * q.val = q.val; rw [e11]; omega

/-- An index of the array is in point `t`'s block iff each coordinate is in the block's range on its axis. -/
theorem mem_block (t : Fin cfg3.N) (i : S100000x64.Idx) :
    i ∈ ((cfg3.win 1).blk t).view.set
      ↔ ∀ a : Fin 2, win3_1.index t a * S5000x64.size a ≤ (i a).val
          ∧ (i a).val < win3_1.index t a * S5000x64.size a + S5000x64.size a := by
  show i ∈ ((View.whole main_v45).slice (win3_1.rect t)).set ↔ _
  rw [View.set_slice_whole, Rect.mem_set_unit]
  exact Iff.rfl

/-- THE TWENTY BLOCKS TILE THE ARRAY: row `r` lies in the block of point `r / 5000`, which writes its block back. -/
theorem covered (i : S100000x64.Idx) :
    ∃ t : Fin cfg3.N, (cfg3.win 1).flush t = true ∧ i ∈ ((cfg3.win 1).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, e10, e11⟩ := index_facts t
  refine ⟨t, flush3_1 t, ?_⟩
  rw [mem_block]
  intro a
  match a with
  | ⟨0, _⟩ =>
    show win3_1.index t (0 : Fin 2) * 5000 ≤ (i 0).val ∧ (i 0).val < win3_1.index t (0 : Fin 2) * 5000 + 5000
    rw [e10, ht]; omega
  | ⟨1, _⟩ =>
    show win3_1.index t (1 : Fin 2) * 64 ≤ (i 1).val ∧ (i 1).val < win3_1.index t (1 : Fin 2) * 64 + 64
    rw [e11]; omega

/-- THE ARRAY THE REGION LEAVES: after its twenty points the output array is the row softmax of the input array as the
    region found it. -/
theorem arr3 (c : Dev nD) : (dat3 (F := Ideal) V c).arrAt 1 cfg3.N = Cert.Gcn.softmax64 (V c main_v44) :=
  (dat3 V c).arrAt_eq_of_cover 1 (Cert.Gcn.softmax64 (V c main_v44)) (fun t _ => flushed_eq V c t) covered

end Blocks

end Cert.KernelIdeal.GcnSoftmax

end
-- ==== Proof.KernelValue.lean ====
/-
  The idealized kernel's result array as ONE function of its arguments.

  The buffer contents at the end of the run are the fold `W8` of eight segments over the launch memory. Read at the
  result buffer and walked backwards it is

      softmax_rows ( Â · ( relu ( Â · ( relu ( Â · (X W0ᵀ) ) Wh0ᵀ ) ) W1ᵀ ) ),

  region by region and stretch by stretch: a region's output array is its stage of the arrays the region was entered
  with (the dense products and the row softmax, each proved for any entry contents), and a host stretch's array is its
  stage of what the previous region left, the edge lists, the edge weights and the transposed weights still as launched
  or as first written. These are, stage for stage, the reference's operations, so the result is the reference's last
  stage `val_main_v57` of the same arguments.
-/
import proofs.«112193_j90031104459077_2_alg».proof.Proof.HostChain
import proofs.«112193_j90031104459077_2_alg».proof.Proof.Matmul0
import proofs.«112193_j90031104459077_2_alg».proof.Proof.Matmul1
import proofs.«112193_j90031104459077_2_alg».proof.Proof.Matmul2
import proofs.«112193_j90031104459077_2_alg».proof.Proof.Softmax

set_option maxRecDepth 16384

noncomputable section

namespace Cert.KernelIdeal.GcnValue

open Cert.KernelIdeal Cert.KernelIdeal.Gen Idealize.ShloMosaic Idealize.ShloMosaic.TcCoe Idealize.SL.Sem
open Cert.KernelIdeal.GcnHost
open Cert.ReferenceIdeal.Read (val_main_v57)
open Idealize.ShloMosaic.Pipeline (Dat)
open Cert.KernelIdeal.GcnMatmul0 Cert.KernelIdeal.GcnMatmul1 Cert.KernelIdeal.GcnMatmul2 Cert.KernelIdeal.GcnSoftmax

variable (m : (ℓ : Loc nD τ sig) → Buf (Elt Ideal) ℓ) (ρ : Dev nD → PrngReg)

/-- The result buffer after the run holds the reference's last stage of the launch arguments: going backwards from the
    softmax region, each region's array is its stage of the array the previous host stretch left, and each host stretch's
    array its stage of the array the previous region left, down to X · W0ᵀ of the arguments themselves. -/
theorem W8_result (c : Dev nD) : W8 m ρ c (Proc.devRef .tc main_v45)
    = val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  -- the softmax region, of what the third neighbour sum left
  rw [Cert.Gcn.v57_eq]
  refine ((W8_arr m ρ c 1).trans (arr3 (V7 m ρ) c)).trans (congrArg Cert.Gcn.softmax64 ?_)
  -- the third neighbour sum, of what the last dense product left
  rw [Cert.Gcn.v46_eq]
  refine (W7_v44 m ρ c).trans (congrArg (Cert.Gcn.spmm64 _ _ _) ?_)
  -- the last dense product, of the second neighbour sum and W1ᵀ
  rw [Cert.Gcn.v33_eq, Cert.Gcn.v31_eq]
  refine ((W6_arr m ρ c 2).trans (arr2 (V5 m ρ) c)).trans ?_
  rw [show V5 m ρ c main_v2 = _ from W5_v2 m ρ c]
  refine congrArg (fun z => Cert.Gcn.lin2 (Cert.Gcn.relu128 z) _) ?_
  -- the second neighbour sum, of what the middle dense product left
  rw [Cert.Gcn.v30_eq]
  refine (W5_v30 m ρ c).trans (congrArg (Cert.Gcn.spmm128 _ _ _) ?_)
  -- the middle dense product, of the first neighbour sum and Wh0ᵀ
  rw [Cert.Gcn.v17_eq, Cert.Gcn.v15_eq]
  refine ((W4_arr m ρ c 2).trans (arr1 (V3 m ρ) c)).trans ?_
  rw [show V3 m ρ c main_v1 = _ from W3_v1 m ρ c]
  refine congrArg (fun z => Cert.Gcn.lin1 (Cert.Gcn.relu128 z) _) ?_
  -- the first neighbour sum, of what the first dense product left
  rw [Cert.Gcn.v14_eq]
  refine (W3_v16 m ρ c).trans (congrArg (Cert.Gcn.spmm128 _ _ _) ?_)
  -- the first dense product, of X and W0ᵀ
  rw [Cert.Gcn.v1_eq]
  refine ((W2_arr m ρ c 2).trans (arr0 (V1 m ρ) c)).trans ?_
  rw [show V1 m ρ c main_arg0 = _ from W1_arg0 m ρ c, show V1 m ρ c main_v0 = _ from W1_v0 m ρ c]

end Cert.KernelIdeal.GcnValue

end
-- ==== Proof.lean ====
/-
  A three-layer graph convolution with a row softmax: the tiled kernel against the plain reference, on the extended reals.

  Both programs take node features X (100000 × 256), a sparse adjacency Â as edge rows, edge columns and edge weights
  (1600000 edges), and weights W0 (128 × 256), Wh0 (128 × 128), W1 (64 × 128), and compute

      softmax_rows ( Â · ( relu ( Â · ( relu ( Â · (X W0ᵀ) ) Wh0ᵀ ) ) W1ᵀ ) ),

  where (Â · Z)[i] = Σ over edges e with row e = i of  val e · Z[col e].

  The reference does every step on whole arrays. The kernel does the three dense products and the softmax in four
  pipelined regions of twenty row blocks of 5000 rows each (the weight fetched whole at every block, relu fused into the
  second and third products, the operands rounded to bf16 on the way into the matrix unit), and the neighbour sums
  between the regions by the very host operations the reference uses.

  At the ideal instance a change of float format is the identity and every operation is the exact one, so the only
  differences left are the tiling — entry (r, j) of a product is a sum over the contraction index of row r of the left
  operand against column j of the right, so the product of a block of rows is that block of the whole product — the
  matrix unit's zero accumulator (0 + s = s), and the reference's softmax taking the maximum with -∞ once more
  (max ⊥ x = x). None of these asks that an entry be finite: the precondition is never opened.

  The modules: Stages (the stages named as functions of one array, and the reference's stages identified with them),
  Matmul0 / Matmul1 / Matmul2 and Softmax (a region's output array is its stage of the region's entry contents),
  HostChain (the host stretches between the regions, and what no segment writes), KernelRun (the kernel's run with its
  result array named), KernelValue (the result array is the reference's last stage of the arguments); the frames and the
  reference's run are the generated ones. The kernel was printed unchanged for the ideal reading, so the idealization
  claim has no conjunct.
-/
import proofs.«112193_j90031104459077_2_alg».proof.Defs
import proofs.«112193_j90031104459077_2_alg».proof.Proof.Gen.Kernel
import proofs.«112193_j90031104459077_2_alg».proof.Proof.Gen.Kernel.Skeleton
import proofs.«112193_j90031104459077_2_alg».proof.Proof.Gen.Kernel.Launch
import proofs.«112193_j90031104459077_2_alg».proof.Proof.Gen.Kernel.Points
import proofs.«112193_j90031104459077_2_alg».proof.Proof.Gen.Kernel.Frame
import proofs.«112193_j90031104459077_2_alg».proof.Proof.Gen.KernelIdeal
import proofs.«112193_j90031104459077_2_alg».proof.Proof.Gen.KernelIdeal.Skeleton
import proofs.«112193_j90031104459077_2_alg».proof.Proof.Gen.KernelIdeal.Launch
import proofs.«112193_j90031104459077_2_alg».proof.Proof.Gen.KernelIdeal.Points
import proofs.«112193_j90031104459077_2_alg».proof.Proof.Gen.KernelIdeal.Frame
import proofs.«112193_j90031104459077_2_alg».proof.Proof.Gen.ReferenceIdeal
import proofs.«112193_j90031104459077_2_alg».proof.Proof.Gen.ReferenceIdeal.Run
import proofs.«112193_j90031104459077_2_alg».proof.Proof.Gen.ReferenceIdeal.Read
import proofs.«112193_j90031104459077_2_alg».proof.Proof.Gen.Pre_finite_inputs
import proofs.«112193_j90031104459077_2_alg».proof.Proof.KernelRun
import proofs.«112193_j90031104459077_2_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories that agree on the arguments both programs end with the reference's last stage of those arguments in their
    result arrays: the kernel by the backward walk through its segments, the reference by its generated run. -/
theorem algebraic : Cert.algebraic_KernelIdeal_ReferenceIdeal := by
  intro m ρ m' ρ' _ hagree
  refine ⟨fun c => Cert.ReferenceIdeal.Read.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.GcnValue.W8_result m ρ c), (h c).2⟩)
      (Cert.KernelIdeal.GcnRun.run_W8 (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v57_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
